-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x800000 : Shape := ⟨2, ![2, 800000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S128x2 .f32) (main_arg13 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x2 .f32 := Host.absf main_arg12
  let main_cst_18 : FVec F S_ .f32 := constant S_ .f32 0x7F800000#32
  let main_v50 : FVec F S128x2 .f32 := broadcastInDim S128x2 ![] bcast_S_S128x2 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x2 .f32) (main_arg13 : FVec F S2 .f32) (main_v13 : IVec S_ 1) (main_v16 : IVec S20x128 1) : IVec S_ 1 :=
  let main_c_5 : IVec S_ 1 := constantI S_ 1 1#1
  let main_v17 : IVec S_ 1 := (fun x v => Host.reduce IntOp.andi x v reducesTo_S20x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x20 .f32) (main_arg1 : IVec S2x800000 32) (main_arg2 : IVec S100000 32) (main_arg3 : FVec F S20x128 .f32) (main_arg4 : FVec F S128 .f32) (main_arg5 : FVec F S20x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x2 .f32) (main_arg13 : FVec F S2 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S20x128 .f32 := Host.absf main_arg3
  let main_cst_0 : FVec F S_ .f32 := constant S_ .f32 0x7F800000#32
  let main_v5 : FVec F S20x128 .f32 := broadcastInDim S20x128 ![] bcast_S_S20x128 main_cst_0
  let main_v6 : IVec S20x128 1 := cmpf .olt main_v4 main_v5
  let main_c_1 : IVec S_ 1 := constantI S_ 1 1#1
  let main_v7 : IVec S_ 1 := (fun x v => Host.reduce IntOp.andi x v reducesTo_S20x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S20x128 .f32 := Host.absf main_arg5
  let main_cst_4 : FVec F S_ .f32 := constant S_ .f32 0x7F800000#32
  let main_v15 : FVec F S20x128 .f32 := broadcastInDim S20x128 ![] bcast_S_S20x128 main_cst_4
  let main_v16 : IVec S20x128 1 := cmpf .olt main_v14 main_v15
  fn_part1 (F := F) main_arg6 main_arg7 main_arg8 main_arg9 main_arg10 main_arg11 main_arg12 main_arg13 main_v13 main_v16
-- ==== Kernel.lean ====
abbrev S100000x20 : Shape := ⟨2, ![100000, 20]⟩
abbrev S2x800000 : Shape := ⟨2, ![2, 800000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x20 : Shape := ⟨2, ![800000, 20]⟩
abbrev S100000x1 : Shape := ⟨2, ![100000, 1]⟩
abbrev S1x128 : Shape := ⟨2, ![1, 128]⟩
abbrev S100000x128 : Shape := ⟨2, ![100000, 128]⟩
abbrev S5000x20 : Shape := ⟨2, ![5000, 20]⟩
abbrev S5000x128 : Shape := ⟨2, ![5000, 128]⟩
abbrev S800000x128 : Shape := ⟨2, ![800000, 128]⟩
abbrev S512x128 : Shape := ⟨2, ![512, 128]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 117
  | .vmem => 31
  | .smem => 0
  | _ => 0

abbrev bufTy : (tb : Table) → Fin (tcTables nBuf tb) → BufTy
  | .hbm, ⟨0, _⟩ => ⟨S100000x20, .f32⟩
  | .hbm, ⟨1, _⟩ => ⟨S2x800000, .i32⟩
  | .hbm, ⟨2, _⟩ => ⟨S100000, .i32⟩
  | .hbm, ⟨3, _⟩ => ⟨S20x128, .f32⟩
  | .hbm, ⟨4, _⟩ => ⟨S128, .f32⟩
  | .hbm, ⟨5, _⟩ => ⟨S20x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x2, .f32⟩
  | .hbm, ⟨13, _⟩ => ⟨S2, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x20, .f32⟩
  | .hbm, ⟨27, _⟩ => ⟨S_, .f32⟩
  | .hbm, ⟨28, _⟩ => ⟨S100000x20, .f32⟩
  | .hbm, ⟨29, _⟩ => ⟨S800000x1, .i32⟩
  | .hbm, ⟨30, _⟩ => ⟨S100000x20, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S100000, .f32⟩
  | .hbm, ⟨35, _⟩ => ⟨S800000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x20, .f32⟩
  | .hbm, ⟨42, _⟩ => ⟨S100000x20, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S100000x128, .f32⟩
  | .hbm, ⟨56, _⟩ => ⟨S800000x1, .i32⟩
  | .hbm, ⟨57, _⟩ => ⟨S100000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S100000, .f32⟩
  | .hbm, ⟨62, _⟩ => ⟨S800000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S100000x128, .f32⟩
  | .hbm, ⟨83, _⟩ => ⟨S800000x1, .i32⟩
  | .hbm, ⟨84, _⟩ => ⟨S100000x128, .f32⟩
  | .hbm, ⟨85, _⟩ => ⟨S_, .f32⟩
  | .hbm, ⟨86, _⟩ => ⟨S800000, .f32⟩
  | .hbm, ⟨87, _⟩ => ⟨S_, .f32⟩
  | .hbm, ⟨88, _⟩ => ⟨S100000, .f32⟩
  | .hbm, ⟨89, _⟩ => ⟨S800000x1, .i32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S_, .f32⟩
  | .hbm, ⟨100, _⟩ => ⟨S512x128, .f32⟩
  | .hbm, ⟨101, _⟩ => ⟨S100000x1, .i32⟩
  | .hbm, ⟨102, _⟩ => ⟨S512x128, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S512, .f32⟩
  | .hbm, ⟨107, _⟩ => ⟨S100000x1, .i32⟩
  | .hbm, ⟨108, _⟩ => ⟨S512, .f32⟩
  | .hbm, ⟨109, _⟩ => ⟨S_, .f32⟩
  | .hbm, ⟨110, _⟩ => ⟨S512, .f32⟩
  | .hbm, ⟨111, _⟩ => ⟨S512, .f32⟩
  | .hbm, ⟨112, _⟩ => ⟨S512x1, .f32⟩
  | .hbm, ⟨113, _⟩ => ⟨S512x128, .f32⟩
  | .hbm, ⟨114, _⟩ => ⟨S512x128, .f32⟩
  | .hbm, ⟨115, _⟩ => ⟨S1x2, .f32⟩
  | .hbm, ⟨116, _⟩ => ⟨S512x2, .f32⟩
  | .local _ .vmem, ⟨0, _⟩ => ⟨S5000x20, .f32⟩
  | .local _ .vmem, ⟨1, _⟩ => ⟨S5000x20, .f32⟩
  | .local _ .vmem, ⟨2, _⟩ => ⟨S5000x20, .f32⟩
  | .local _ .vmem, ⟨3, _⟩ => ⟨S5000x20, .f32⟩
  | .local _ .vmem, ⟨4, _⟩ => ⟨S20x128, .f32⟩
  | .local _ .vmem, ⟨5, _⟩ => ⟨S1x128, .f32⟩
  | .local _ .vmem, ⟨6, _⟩ => ⟨S20x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S512x128, .f32⟩
  | .local _ .vmem, ⟨28, _⟩ => ⟨S128x2, .f32⟩
  | .local _ .vmem, ⟨29, _⟩ => ⟨S1x2, .f32⟩
  | .local _ .vmem, ⟨30, _⟩ => ⟨S512x2, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_15 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x20 : S_.BroadcastsInDim S100000x20 (![] : Fin 0 → Fin S100000x20.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  bcast_S128_S1x128_1 : S128.BroadcastsInDim S1x128 (![1] : Fin 1 → Fin S1x128.rank)
  inb_S5000x20_S5000x20_0_0 : ∀ a, (![0, 0] : Fin 2 → Nat) a + S5000x20.size a ≤ S5000x20.size a
  h_S5000x20 : 0 < S5000x20.numel
  shapeCasts_S5000x20_S5000x20 : S5000x20.ShapeCasts S5000x20
  bitsLt_bf16_f32 : FTy.bits .bf16 < FTy.bits .f32
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S100000x20_S800000x1_S800000x20_1_0_n_n_0_1_120_wf : GatherDims.WF S100000x20 S800000x1 S800000x20 [1] [0] [] [0] [] 1 ![1, 20]
  scatter_S100000x20_S800000x1_S800000x20_1_0_0_1_wf : ScatterDims.WF S100000x20 S800000x1 S800000x20 [1] [0] [0] 1
  scatter_S100000_S800000x1_S800000_n_0_0_1_wf : ScatterDims.WF S100000 S800000x1 S800000 [] [0] [0] 1
  dot_S5000x20_S20x128_S5000x128_1_0_0_1_n_n_wf : DotDims.WF S5000x20 S20x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S100000x20.size a
  hwx0_0 : ∀ i : grid0.Coords, EltTy.bits .f32 = 32 ∨ (Rect.block (s := S100000x20) S5000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x20.size a ≤ S100000x20.size a
  hwx0_1 : ∀ i : grid0.Coords, EltTy.bits .f32 = 32 ∨ (Rect.block (s := S100000x20) S5000x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x128.size a ≤ S20x128.size a
  hwx0_2 : ∀ i : grid0.Coords, EltTy.bits .f32 = 32 ∨ (Rect.block (s := S20x128) S20x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x128.size a ≤ S20x128.size a
  hwx0_4 : ∀ i : grid0.Coords, EltTy.bits .f32 = 32 ∨ (Rect.block (s := S20x128) S20x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x2.size a ≤ S512x2.size a
  hwx3_3 : ∀ i : grid3.Coords, EltTy.bits .f32 = 32 ∨ (Rect.block (s := S512x2) S512x2.size (cc3_transform_3 i) (hinb3_3 i)).WholeWords (EltTy.packing .f32)

variable [Facts₀]

def gather_S100000x20_S800000x1_S800000x20_1_0_n_n_0_1_120 : GatherDims S100000x20 S800000x1 S800000x20 where
  offsetDims := [1]
  collapsedSliceDims := [0]
  operandBatchingDims := []
  startIndicesBatchingDims := []
  startIndexMap := [0]
  indexVectorDim := 1
  sliceSizes := ![1, 20]
  wf := gather_S100000x20_S800000x1_S800000x20_1_0_n_n_0_1_120_wf
def scatter_S100000x20_S800000x1_S800000x20_1_0_0_1 : ScatterDims S100000x20 S800000x1 S800000x20 where
  updateWindowDims := [1]
  insertedWindowDims := [0]
  scatterDimsToOperandDims := [0]
  indexVectorDim := 1
  wf := scatter_S100000x20_S800000x1_S800000x20_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x20_S20x128_S5000x128_1_0_0_1_n_n : DotDims S5000x20 S20x128 S5000x128 where
  lhsContracting := [1]
  rhsContracting := [0]
  lhsNonContracting := [0]
  rhsNonContracting := [1]
  lhsBatch := []
  rhsBatch := []
  wf := dot_S5000x20_S20x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v22) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S20x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S20x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S512x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x20 : Shape := ⟨2, ![100000, 20]⟩
abbrev S2x800000 : Shape := ⟨2, ![2, 800000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x20 : Shape := ⟨2, ![800000, 20]⟩
abbrev S100000x1 : Shape := ⟨2, ![100000, 1]⟩
abbrev S100000x128 : Shape := ⟨2, ![100000, 128]⟩
abbrev S1x128 : Shape := ⟨2, ![1, 128]⟩
abbrev S800000x128 : Shape := ⟨2, ![800000, 128]⟩
abbrev S512x128 : Shape := ⟨2, ![512, 128]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S100000x20, .f32⟩
  | 1 => ⟨S2x800000, .i32⟩
  | 2 => ⟨S100000, .i32⟩
  | 3 => ⟨S20x128, .f32⟩
  | 4 => ⟨S128, .f32⟩
  | 5 => ⟨S20x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x2, .f32⟩
  | 13 => ⟨S2, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x20, .f32⟩
  | 27 => ⟨S_, .f32⟩
  | 28 => ⟨S100000x20, .f32⟩
  | 29 => ⟨S800000x1, .i32⟩
  | 30 => ⟨S100000x20, .f32⟩
  | 31 => ⟨S_, .f32⟩
  | 32 => ⟨S800000, .f32⟩
  | 33 => ⟨S_, .f32⟩
  | 34 => ⟨S100000, .f32⟩
  | 35 => ⟨S800000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x20, .f32⟩
  | 42 => ⟨S100000x20, .f32⟩
  | 43 => ⟨S100000x128, .f32⟩
  | 44 => ⟨S1x128, .f32⟩
  | 45 => ⟨S100000x128, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S100000x128, .f32⟩
  | 63 => ⟨S800000x1, .i32⟩
  | 64 => ⟨S100000x128, .f32⟩
  | 65 => ⟨S_, .f32⟩
  | 66 => ⟨S800000, .f32⟩
  | 67 => ⟨S_, .f32⟩
  | 68 => ⟨S100000, .f32⟩
  | 69 => ⟨S800000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S100000x128, .f32⟩
  | 97 => ⟨S800000x1, .i32⟩
  | 98 => ⟨S100000x128, .f32⟩
  | 99 => ⟨S_, .f32⟩
  | 100 => ⟨S800000, .f32⟩
  | 101 => ⟨S_, .f32⟩
  | 102 => ⟨S100000, .f32⟩
  | 103 => ⟨S800000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S100000x128, .f32⟩
  | 117 => ⟨S_, .f32⟩
  | 118 => ⟨S512x128, .f32⟩
  | 119 => ⟨S100000x1, .i32⟩
  | 120 => ⟨S512x128, .f32⟩
  | 121 => ⟨S_, .f32⟩
  | 122 => ⟨S100000, .f32⟩
  | 123 => ⟨S_, .f32⟩
  | 124 => ⟨S512, .f32⟩
  | 125 => ⟨S100000x1, .i32⟩
  | 126 => ⟨S512, .f32⟩
  | 127 => ⟨S_, .f32⟩
  | _ => ⟨S100000x20, .f32⟩

abbrev hbmTy0_1 (i : Nat) : BufTy := match i % 128 with
  | 0 => ⟨S512, .f32⟩
  | 1 => ⟨S512, .f32⟩
  | 2 => ⟨S512x1, .f32⟩
  | 3 => ⟨S512x128, .f32⟩
  | 4 => ⟨S512x128, .f32⟩
  | 5 => ⟨S512x2, .f32⟩
  | 6 => ⟨S1x2, .f32⟩
  | 7 => ⟨S512x2, .f32⟩
  | 8 => ⟨S512x2, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x20 : S_.BroadcastsInDim S100000x20 (![] : Fin 0 → Fin S100000x20.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x20_S800000x1_S800000x20_1_0_n_n_0_1_120_wf : GatherDims.WF S100000x20 S800000x1 S800000x20 [1] [0] [] [0] [] 1 ![1, 20]
  scatter_S100000x20_S800000x1_S800000x20_1_0_0_1_wf : ScatterDims.WF S100000x20 S800000x1 S800000x20 [1] [0] [0] 1
  scatter_S100000_S800000x1_S800000_n_0_0_1_wf : ScatterDims.WF S100000 S800000x1 S800000 [] [0] [0] 1
  dot_S100000x20_S20x128_S100000x128_1_0_0_1_n_n_wf : DotDims.WF S100000x20 S20x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def gather_S100000x20_S800000x1_S800000x20_1_0_n_n_0_1_120 : GatherDims S100000x20 S800000x1 S800000x20 where
  offsetDims := [1]
  collapsedSliceDims := [0]
  operandBatchingDims := []
  startIndicesBatchingDims := []
  startIndexMap := [0]
  indexVectorDim := 1
  sliceSizes := ![1, 20]
  wf := gather_S100000x20_S800000x1_S800000x20_1_0_n_n_0_1_120_wf
def scatter_S100000x20_S800000x1_S800000x20_1_0_0_1 : ScatterDims S100000x20 S800000x1 S800000x20 where
  updateWindowDims := [1]
  insertedWindowDims := [0]
  scatterDimsToOperandDims := [0]
  indexVectorDim := 1
  wf := scatter_S100000x20_S800000x1_S800000x20_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x20_S20x128_S100000x128_1_0_0_1_n_n : DotDims S100000x20 S20x128 S100000x128 where
  lhsContracting := [1]
  rhsContracting := [0]
  lhsNonContracting := [0]
  rhsNonContracting := [1]
  lhsBatch := []
  rhsBatch := []
  wf := dot_S100000x20_S20x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.WholeRun.lean ====
import proofs.«177792_j52475910422832_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The kernel program's run, with every buffer's final contents

The program is eight segments: four stretches of host operations, each followed by a kernel region. The generated frame
proof folds the buffer contents through the segments (`Gen.W0` … `Gen.W8`) and keeps, of the final contents, only the
argument arrays. Here the same launch over the same segments keeps ALL of them: every weakly fair execution ends with
every unscoped buffer at `Gen.W8`, so the result array is `Gen.W8` at the result's reference. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The same run, read at the result array and the fourteen arguments. -/
theorem run_result : θ_run defs (onTc (τ := τ) (main (F := F))) ⟨m, fun _ => 0, ρ⟩ (fun r => ∀ c : Dev nD,
      r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun s h c =>
    ⟨h c _ (mem_uc main_v80 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c)⟩)
    (run_all m ρ)

end Cert.KernelIdeal.WholeRun

end
-- ==== Proof.Products.lean ====
import proofs.«177792_j52475910422832_1_alg».proof.KernelIdeal
import proofs.«177792_j52475910422832_1_alg».proof.Proof.Gen.KernelIdeal
import Idealize.ShloMosaic.Lib.Pipeline.Value
import Idealize.ShloMosaic.Lib.ValueIdx
import Idealize.ShloMosaic.PureOps.Ideal.Laws

set_option maxRecDepth 16384

noncomputable section

namespace Cert.KernelIdeal.Products

open Idealize.ShloMosaic Idealize.ShloMosaic.TcCoe Idealize.SL.Sem Idealize.ShloMosaic.ValueIdx
open Cert.KernelIdeal

/-! # The kernels' matrix products read at an index

Each kernel body multiplies a block of rows by a whole weight matrix on the matrix unit, into a zero accumulator. Over the
extended reals that product, read at one entry, is the plain sum of products along the contracted axis. -/

/-- Operand indices of the plain product [5000,20]·[20,128] at output index `j` and contraction index `k`: row `j 0`, column `k`
    of the left operand; row `k`, column `j 1` of the right. -/
theorem dot_S5000x20_S20x128_S5000x128_1_0_0_1_n_n_lhs0 (i : S5000x128.Idx) (q : dot_S5000x20_S20x128_S5000x128_1_0_0_1_n_n.contr.Idx) : (dot_S5000x20_S20x128_S5000x128_1_0_0_1_n_n.lhsIdx i q 0).val = (i 0).val := by
  unfold DotDims.lhsIdx
  rw [dif_neg (show ¬(0 : Fin S5000x20.rank) ∈ dot_S5000x20_S20x128_S5000x128_1_0_0_1_n_n.lhsBatch by decide), dif_pos (show (0 : Fin S5000x20.rank) ∈ dot_S5000x20_S20x128_S5000x128_1_0_0_1_n_n.lhsNonContracting by decide)]
  rfl
theorem dot_S5000x20_S20x128_S5000x128_1_0_0_1_n_n_lhs1 (i : S5000x128.Idx) (q : dot_S5000x20_S20x128_S5000x128_1_0_0_1_n_n.contr.Idx) : (dot_S5000x20_S20x128_S5000x128_1_0_0_1_n_n.lhsIdx i q 1).val = (q ⟨0, by decide⟩).val :=
  dot_S5000x20_S20x128_S5000x128_1_0_0_1_n_n.lhsIdx_val_of_single rfl i q
theorem dot_S5000x20_S20x128_S5000x128_1_0_0_1_n_n_rhs0 (i : S5000x128.Idx) (q : dot_S5000x20_S20x128_S5000x128_1_0_0_1_n_n.contr.Idx) : (dot_S5000x20_S20x128_S5000x128_1_0_0_1_n_n.rhsIdx i q 0).val = (q ⟨0, by decide⟩).val :=
  dot_S5000x20_S20x128_S5000x128_1_0_0_1_n_n.rhsIdx_val_of_single rfl i q
theorem dot_S5000x20_S20x128_S5000x128_1_0_0_1_n_n_rhs1 (i : S5000x128.Idx) (q : dot_S5000x20_S20x128_S5000x128_1_0_0_1_n_n.contr.Idx) : (dot_S5000x20_S20x128_S5000x128_1_0_0_1_n_n.rhsIdx i q 1).val = (i 1).val := by
  unfold DotDims.rhsIdx
  rw [dif_neg (show ¬(1 : Fin S20x128.rank) ∈ dot_S5000x20_S20x128_S5000x128_1_0_0_1_n_n.rhsBatch by decide), dif_pos (show (1 : Fin S20x128.rank) ∈ dot_S5000x20_S20x128_S5000x128_1_0_0_1_n_n.rhsNonContracting by decide)]
  rfl

/-- The matrix product into a zero accumulator, read at row `p` and column `q`: the sum over `k` of the products of the
    left operand's row `p` and the right operand's column `q`. -/
theorem dot_S5000x20_S20x128_S5000x128_1_0_0_1_n_n_apply {φ₁ φ₂ : FTy} (A : FVec Ideal S5000x20 φ₁) (W : FVec Ideal S20x128 φ₂) (p : Fin 5000) (q : Fin 128) :
    matmul dot_S5000x20_S20x128_S5000x128_1_0_0_1_n_n none A W (constant S5000x128 .f32 0x00000000#32) (ix2 p q) = ∑ k : Fin 20, A (ix2 p k) * W (ix2 k q) := by
  refine (Ideal.matmul_constant_zero_apply dot_S5000x20_S20x128_S5000x128_1_0_0_1_n_n none A W (ix2 p q)).trans ?_
  rw [← Equiv.sum_comp (ValueIdx.contrEquiv1 dot_S5000x20_S20x128_S5000x128_1_0_0_1_n_n 20 rfl rfl).symm]
  refine Finset.sum_congr rfl fun k _ => ?_
  have hk := ValueIdx.contrEquiv1_symm_val dot_S5000x20_S20x128_S5000x128_1_0_0_1_n_n 20 rfl rfl k
  have el : dot_S5000x20_S20x128_S5000x128_1_0_0_1_n_n.lhsIdx (ix2 p q) ((ValueIdx.contrEquiv1 dot_S5000x20_S20x128_S5000x128_1_0_0_1_n_n 20 rfl rfl).symm k) = ix2 p k := funext fun a => Fin.ext (by
    match a with
    | ⟨0, _⟩ => exact dot_S5000x20_S20x128_S5000x128_1_0_0_1_n_n_lhs0 _ _
    | ⟨1, _⟩ => exact (dot_S5000x20_S20x128_S5000x128_1_0_0_1_n_n_lhs1 _ _).trans hk)
  have er : dot_S5000x20_S20x128_S5000x128_1_0_0_1_n_n.rhsIdx (ix2 p q) ((ValueIdx.contrEquiv1 dot_S5000x20_S20x128_S5000x128_1_0_0_1_n_n 20 rfl rfl).symm k) = ix2 k q := funext fun a => Fin.ext (by
    match a with
    | ⟨0, _⟩ => exact (dot_S5000x20_S20x128_S5000x128_1_0_0_1_n_n_rhs0 _ _).trans hk
    | ⟨1, _⟩ => exact dot_S5000x20_S20x128_S5000x128_1_0_0_1_n_n_rhs1 _ _)
  rw [el, er]

/-- Operand indices of the plain product [5000,128]·[128,128] at output index `j` and contraction index `k`: row `j 0`, column `k`
    of the left operand; row `k`, column `j 1` of the right. -/
theorem dot_S5000x128_S128x128_S5000x128_1_0_0_1_n_n_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_S5000x128_S128x128_S5000x128_1_0_0_1_n_n_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dot_S5000x128_S128x128_S5000x128_1_0_0_1_n_n_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dot_S5000x128_S128x128_S5000x128_1_0_0_1_n_n_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, read at row `p` and column `q`: the sum over `k` of the products of the
    left operand's row `p` and the right operand's column `q`. -/
theorem dot_S5000x128_S128x128_S5000x128_1_0_0_1_n_n_apply {φ₁ φ₂ : FTy} (A : FVec Ideal S5000x128 φ₁) (W : FVec Ideal S128x128 φ₂) (p : Fin 5000) (q : Fin 128) :
    matmul dot_S5000x128_S128x128_S5000x128_1_0_0_1_n_n none A W (constant S5000x128 .f32 0x00000000#32) (ix2 p q) = ∑ k : Fin 128, A (ix2 p k) * W (ix2 k q) := by
  refine (Ideal.matmul_constant_zero_apply dot_S5000x128_S128x128_S5000x128_1_0_0_1_n_n none A W (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot_S5000x128_S128x128_S5000x128_1_0_0_1_n_n_lhs0 _ _
    | ⟨1, _⟩ => exact (dot_S5000x128_S128x128_S5000x128_1_0_0_1_n_n_lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n_rhs0 _ _).trans hk
    | ⟨1, _⟩ => exact dot_S5000x128_S128x128_S5000x128_1_0_0_1_n_n_rhs1 _ _)
  rw [el, er]

/-- Operand indices of the plain product [512,128]·[128,2] at output index `j` and contraction index `k`: row `j 0`, column `k`
    of the left operand; row `k`, column `j 1` of the right. -/
theorem dot_S512x128_S128x2_S512x2_1_0_0_1_n_n_lhs0 (i : S512x2.Idx) (q : dot_S512x128_S128x2_S512x2_1_0_0_1_n_n.contr.Idx) : (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem dot_S512x128_S128x2_S512x2_1_0_0_1_n_n_lhs1 (i : S512x2.Idx) (q : dot_S512x128_S128x2_S512x2_1_0_0_1_n_n.contr.Idx) : (dot_S512x128_S128x2_S512x2_1_0_0_1_n_n.lhsIdx i q 1).val = (q ⟨0, by decide⟩).val :=
  dot_S512x128_S128x2_S512x2_1_0_0_1_n_n.lhsIdx_val_of_single rfl i q
theorem dot_S512x128_S128x2_S512x2_1_0_0_1_n_n_rhs0 (i : S512x2.Idx) (q : dot_S512x128_S128x2_S512x2_1_0_0_1_n_n.contr.Idx) : (dot_S512x128_S128x2_S512x2_1_0_0_1_n_n.rhsIdx i q 0).val = (q ⟨0, by decide⟩).val :=
  dot_S512x128_S128x2_S512x2_1_0_0_1_n_n.rhsIdx_val_of_single rfl i q
theorem dot_S512x128_S128x2_S512x2_1_0_0_1_n_n_rhs1 (i : S512x2.Idx) (q : dot_S512x128_S128x2_S512x2_1_0_0_1_n_n.contr.Idx) : (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The matrix product into a zero accumulator, read at row `p` and column `q`: the sum over `k` of the products of the
    left operand's row `p` and the right operand's column `q`. -/
theorem dot_S512x128_S128x2_S512x2_1_0_0_1_n_n_apply {φ₁ φ₂ : FTy} (A : FVec Ideal S512x128 φ₁) (W : FVec Ideal S128x2 φ₂) (p : Fin 512) (q : Fin 2) :
    matmul dot_S512x128_S128x2_S512x2_1_0_0_1_n_n none A W (constant S512x2 .f32 0x00000000#32) (ix2 p q) = ∑ k : Fin 128, A (ix2 p k) * W (ix2 k q) := by
  refine (Ideal.matmul_constant_zero_apply dot_S512x128_S128x2_S512x2_1_0_0_1_n_n none A W (ix2 p q)).trans ?_
  rw [← Equiv.sum_comp (ValueIdx.contrEquiv1 dot_S512x128_S128x2_S512x2_1_0_0_1_n_n 128 rfl rfl).symm]
  refine Finset.sum_congr rfl fun k _ => ?_
  have hk := ValueIdx.contrEquiv1_symm_val dot_S512x128_S128x2_S512x2_1_0_0_1_n_n 128 rfl rfl k
  have el : dot_S512x128_S128x2_S512x2_1_0_0_1_n_n.lhsIdx (ix2 p q) ((ValueIdx.contrEquiv1 dot_S512x128_S128x2_S512x2_1_0_0_1_n_n 128 rfl rfl).symm k) = ix2 p k := funext fun a => Fin.ext (by
    match a with
    | ⟨0, _⟩ => exact dot_S512x128_S128x2_S512x2_1_0_0_1_n_n_lhs0 _ _
    | ⟨1, _⟩ => exact (dot_S512x128_S128x2_S512x2_1_0_0_1_n_n_lhs1 _ _).trans hk)
  have er : dot_S512x128_S128x2_S512x2_1_0_0_1_n_n.rhsIdx (ix2 p q) ((ValueIdx.contrEquiv1 dot_S512x128_S128x2_S512x2_1_0_0_1_n_n 128 rfl rfl).symm k) = ix2 k q := funext fun a => Fin.ext (by
    match a with
    | ⟨0, _⟩ => exact (dot_S512x128_S128x2_S512x2_1_0_0_1_n_n_rhs0 _ _).trans hk
    | ⟨1, _⟩ => exact dot_S512x128_S128x2_S512x2_1_0_0_1_n_n_rhs1 _ _)
  rw [el, er]

end Cert.KernelIdeal.Products

end
-- ==== Proof.Layer0.lean ====
import proofs.«177792_j52475910422832_1_alg».proof.Proof.Gen.KernelIdeal.Frame
import proofs.«177792_j52475910422832_1_alg».proof.Proof.Products
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Idealize.ShloMosaic Idealize.ShloMosaic.TcCoe Idealize.SL.Sem Idealize.ShloMosaic.ValueIdx
open Cert.KernelIdeal Cert.KernelIdeal.Gen Cert.KernelIdeal.Products
open Idealize.ShloMosaic.Pipeline (Dat Cfg Window)

/-! # Kernel region 0: one graph-convolution layer over all nodes

The region walks the 100000 nodes in 20 blocks of 5000 rows. At each block it multiplies the block of aggregated neighbour
features by the left weights, the block of the nodes' own features by the right weights, adds the two products and the bias
row, and clamps at zero. Each output row depends only on the same row of the two feature arrays, so the 20 blocks written
back are the restrictions of ONE whole-array function, `layer`, and they tile the output array. -/

variable (V : (c : Dev nD) → (b : Ref sig .tc) → Buf (Elt Ideal) ((c : Thread nD τ).loc b))

theorem hz : (![0, 0] : Fin 2 → Nat) = fun _ => 0 := funext fun a => by fin_cases a <;> rfl

/-- The layer as a function of whole arrays: entry (r, j) is the positive part of Σₖ A[r,k]·Wl[k,j] + Σₖ H[r,k]·Wr[k,j] + b[0,j]. -/
def layer (A H : S100000x20.Idx → Ideal .f32) (Wl Wr : S20x128.Idx → Ideal .f32) (b : S1x128.Idx → Ideal .f32) : S100000x128.Idx → Ideal .f32 :=
  fun i => max (((∑ k : Fin 20, A (ix2 (i 0) k) * Wl (ix2 k (i 1))) + (∑ k : Fin 20, H (ix2 (i 0) k) * Wr (ix2 k (i 1)))) + b (ix2 (0 : Fin 1) (i 1))) (Ideal.ofBits .f32 0x00000000#32)

/-- The body's stored value at row `p`, column `q` of the block, from the loaded blocks: the two products are plain sums over
    the contracted axis (a change of float format is the identity on the extended reals), the bias row is read at column `q`. -/
theorem pay_apply (x0 x1 : Vec Ideal S5000x20 .f32) (x2 x4 : Vec Ideal S20x128 .f32) (x3 : Vec Ideal S1x128 .f32) (p : Fin 5000) (q : Fin 128) :
    k0_pay1 (F := Ideal) x0 x1 x2 x4 x3 (ix2 p q)
      = max (((∑ k : Fin 20, x0 (ix2 p k) * x2 (ix2 k q)) + (∑ k : Fin 20, x1 (ix2 p k) * x4 (ix2 k q))) + x3 (ix2 (0 : Fin 1) q)) (Ideal.ofBits .f32 0x00000000#32) := by
  unfold k0_pay1
  simp only [maximumf_apply, broadcast_apply, addf_apply, shapeCast_self]
  rw [dot_S5000x20_S20x128_S5000x128_1_0_0_1_n_n_apply, dot_S5000x20_S20x128_S5000x128_1_0_0_1_n_n_apply, broadcastTo_1b_ab_apply]
  rfl

/-- The printed index maps, decided over the 20 grid points: the two feature windows and the output window move together
    down the rows (block `t` at point `t`), the weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `layer` of the arrays as the region finds them. -/
theorem flushed_eq (c : Dev nD) (t : Fin cfg0.N) :
    (dat0 V c).flushed 5 t = ((cfg0.win 5).blk t).view.read (Elt Ideal)
      (layer (V c main_v22) (V c main_arg0) (V c main_arg3) (V c main_arg5) (V c main_v23)) := by
  show (cfg0.win 5).cut (grid0.coords t) ((dat0 V c).after 5 t) = _
  rw [after0_5]
  unfold out0_5
  rw [View.canon_unit_zero hz]
  simp only [View.ld_unit_zero (S := S5000x20) hz, View.ld_unit_zero (S := S20x128) hz, View.ld_unit_zero (S := S1x128) hz]
  obtain ⟨e00, e01, e10, e11, e20, e21, e30, e31, e40, e41, e50, e51⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  refine (pay_apply _ _ _ _ _ p q).trans ?_
  have hr : t.val * 5000 + p.val < 100000 := by have := p.isLt; omega
  have he : ((cfg0.win 5).blk t).view.emb (ix2 p q) = (ix2 (⟨t.val * 5000 + p.val, hr⟩ : Fin 100000) q : S100000x128.Idx) :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  have h0 : ∀ k : Fin 20, iblk0 V c 0 t (ix2 p k) = V c main_v22 (ix2 (⟨t.val * 5000 + p.val, hr⟩ : Fin 100000) k : S100000x20.Idx) := fun k => by
    show V c main_v22 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 20 + 1 * k.val = k.val; omega
  have h1 : ∀ k : Fin 20, iblk0 V c 1 t (ix2 p k) = V c main_arg0 (ix2 (⟨t.val * 5000 + p.val, hr⟩ : Fin 100000) k : S100000x20.Idx) := fun k => by
    show V c main_arg0 (((cfg0.win 1).blk t).view.emb (ix2 p k)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 20 + 1 * k.val = k.val; omega
  have h2 : ∀ k : Fin 20, iblk0 V c 2 t (ix2 k q) = V c main_arg3 (ix2 k q : S20x128.Idx) := fun k => by
    show V c main_arg3 (((cfg0.win 2).blk t).view.emb (ix2 k q)) = _
    refine congrArg _ (funext fun a => Fin.ext ?_)
    match a with
    | ⟨0, _⟩ => show win0_2.index t (0 : Fin 2) * 20 + 1 * k.val = k.val; omega
    | ⟨1, _⟩ => show win0_2.index t (1 : Fin 2) * 128 + 1 * q.val = q.val; omega
  have h4 : ∀ k : Fin 20, iblk0 V c 4 t (ix2 k q) = V c main_arg5 (ix2 k q : S20x128.Idx) := fun k => by
    show V c main_arg5 (((cfg0.win 4).blk t).view.emb (ix2 k q)) = _
    refine congrArg _ (funext fun a => Fin.ext ?_)
    match a with
    | ⟨0, _⟩ => show win0_4.index t (0 : Fin 2) * 20 + 1 * k.val = k.val; omega
    | ⟨1, _⟩ => show win0_4.index t (1 : Fin 2) * 128 + 1 * q.val = q.val; omega
  have h3 : iblk0 V c 3 t (ix2 (0 : Fin 1) q) = V c main_v23 (ix2 (0 : Fin 1) q : S1x128.Idx) := by
    show V c main_v23 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  show _ = layer (V c main_v22) (V c main_arg0) (V c main_arg3) (V c main_arg5) (V c main_v23) (((cfg0.win 5).blk t).view.emb (ix2 p q))
  rw [he]
  simp only [h0, h1, h2, h3, h4]
  rfl

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row `r` lies in the block of point `r / 5000`: the 20 blocks cover the output array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  refine ⟨⟨(i 0).val / 5000, hN⟩, flush0_5 _, ?_⟩
  rw [mem_blk]
  obtain ⟨-, -, -, -, -, -, -, -, -, -, e50, e51⟩ := idx_facts ⟨(i 0).val / 5000, hN⟩
  intro a
  match a with
  | ⟨0, _⟩ => show win0_5.index _ (0 : Fin 2) * 5000 ≤ (i 0).val ∧ (i 0).val < win0_5.index _ (0 : Fin 2) * 5000 + 5000; rw [e50]; show (i 0).val / 5000 * 5000 ≤ (i 0).val ∧ (i 0).val < (i 0).val / 5000 * 5000 + 5000; omega
  | ⟨1, _⟩ => show win0_5.index _ (1 : Fin 2) * 128 ≤ (i 1).val ∧ (i 1).val < win0_5.index _ (1 : Fin 2) * 128 + 128; rw [e51]; omega

/-- The output array after the region: `layer` of the arrays as the region finds them. -/
theorem final (c : Dev nD) : (dat0 V c).arrAt 5 cfg0.N
    = layer (V c main_v22) (V c main_arg0) (V c main_arg3) (V c main_arg5) (V c main_v23) :=
  (dat0 V c).arrAt_eq_of_cover 5 _ (fun t _ => flushed_eq V c t) cover

end Cert.KernelIdeal.Layer0

end
-- ==== Proof.Layer1.lean ====
import proofs.«177792_j52475910422832_1_alg».proof.Proof.Gen.KernelIdeal.Frame
import proofs.«177792_j52475910422832_1_alg».proof.Proof.Products
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Idealize.ShloMosaic Idealize.ShloMosaic.TcCoe Idealize.SL.Sem Idealize.ShloMosaic.ValueIdx
open Cert.KernelIdeal Cert.KernelIdeal.Gen Cert.KernelIdeal.Products
open Idealize.ShloMosaic.Pipeline (Dat Cfg Window)

/-! # Kernel region 1: one graph-convolution layer over all nodes

The region walks the 100000 nodes in 20 blocks of 5000 rows. At each block it multiplies the block of aggregated neighbour
features by the left weights, the block of the nodes' own features by the right weights, adds the two products and the bias
row, and clamps at zero. Each output row depends only on the same row of the two feature arrays, so the 20 blocks written
back are the restrictions of ONE whole-array function, `layer`, and they tile the output array. -/

variable (V : (c : Dev nD) → (b : Ref sig .tc) → Buf (Elt Ideal) ((c : Thread nD τ).loc b))

theorem hz : (![0, 0] : Fin 2 → Nat) = fun _ => 0 := funext fun a => by fin_cases a <;> rfl

/-- The layer as a function of whole arrays: entry (r, j) is the positive part of Σₖ A[r,k]·Wl[k,j] + Σₖ H[r,k]·Wr[k,j] + b[0,j]. -/
def layer (A H : S100000x128.Idx → Ideal .f32) (Wl Wr : S128x128.Idx → Ideal .f32) (b : S1x128.Idx → Ideal .f32) : S100000x128.Idx → Ideal .f32 :=
  fun i => max (((∑ k : Fin 128, A (ix2 (i 0) k) * Wl (ix2 k (i 1))) + (∑ k : Fin 128, H (ix2 (i 0) k) * Wr (ix2 k (i 1)))) + b (ix2 (0 : Fin 1) (i 1))) (Ideal.ofBits .f32 0x00000000#32)

/-- The body's stored value at row `p`, column `q` of the block, from the loaded blocks: the two products are plain sums over
    the contracted axis (a change of float format is the identity on the extended reals), the bias row is read at column `q`. -/
theorem pay_apply (x0 x1 : Vec Ideal S5000x128 .f32) (x2 x4 : Vec Ideal S128x128 .f32) (x3 : Vec Ideal S1x128 .f32) (p : Fin 5000) (q : Fin 128) :
    k1_pay1 (F := Ideal) x0 x1 x2 x4 x3 (ix2 p q)
      = max (((∑ k : Fin 128, x0 (ix2 p k) * x2 (ix2 k q)) + (∑ k : Fin 128, x1 (ix2 p k) * x4 (ix2 k q))) + x3 (ix2 (0 : Fin 1) q)) (Ideal.ofBits .f32 0x00000000#32) := by
  unfold k1_pay1
  simp only [maximumf_apply, broadcast_apply, addf_apply, shapeCast_self]
  rw [dot_S5000x128_S128x128_S5000x128_1_0_0_1_n_n_apply, dot_S5000x128_S128x128_S5000x128_1_0_0_1_n_n_apply, broadcastTo_1b_ab_apply]
  rfl

/-- The printed index maps, decided over the 20 grid points: the two feature windows and the output window move together
    down the rows (block `t` at point `t`), the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `layer` of the arrays as the region finds them. -/
theorem flushed_eq (c : Dev nD) (t : Fin cfg1.N) :
    (dat1 V c).flushed 5 t = ((cfg1.win 5).blk t).view.read (Elt Ideal)
      (layer (V c main_v43) (V c main_v24) (V c main_arg6) (V c main_arg8) (V c main_v44)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  have ht : t.val < 20 := lt_of_lt_of_eq t.isLt N_1
  funext j
  obtain ⟨p, q, rfl⟩ : ∃ (p : Fin 5000) (q : Fin 128), j = ix2 p q := ⟨j 0, j 1, eq_ix2 j⟩
  refine (pay_apply _ _ _ _ _ p q).trans ?_
  have hr : t.val * 5000 + p.val < 100000 := by have := p.isLt; omega
  have he : ((cfg1.win 5).blk t).view.emb (ix2 p q) = (ix2 (⟨t.val * 5000 + p.val, hr⟩ : Fin 100000) q : S100000x128.Idx) :=
    funext fun a => Fin.ext (by
      match a with
      | ⟨0, _⟩ => show win1_5.index t (0 : Fin 2) * 5000 + 1 * p.val = t.val * 5000 + p.val; omega
      | ⟨1, _⟩ => show win1_5.index t (1 : Fin 2) * 128 + 1 * q.val = q.val; omega)
  have h0 : ∀ k : Fin 128, iblk1 V c 0 t (ix2 p k) = V c main_v43 (ix2 (⟨t.val * 5000 + p.val, hr⟩ : Fin 100000) k : S100000x128.Idx) := fun k => by
    show V c main_v43 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, iblk1 V c 1 t (ix2 p k) = V c main_v24 (ix2 (⟨t.val * 5000 + p.val, hr⟩ : Fin 100000) k : S100000x128.Idx) := fun k => by
    show V c main_v24 (((cfg1.win 1).blk t).view.emb (ix2 p k)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  have h2 : ∀ k : Fin 128, iblk1 V c 2 t (ix2 k q) = V c main_arg6 (ix2 k q : S128x128.Idx) := fun k => by
    show V c main_arg6 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  have h4 : ∀ k : Fin 128, iblk1 V c 4 t (ix2 k q) = V c main_arg8 (ix2 k q : S128x128.Idx) := fun k => by
    show V c main_arg8 (((cfg1.win 4).blk t).view.emb (ix2 k q)) = _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  have h3 : iblk1 V c 3 t (ix2 (0 : Fin 1) q) = V c main_v44 (ix2 (0 : Fin 1) q : S1x128.Idx) := by
    show V c main_v44 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  show _ = layer (V c main_v43) (V c main_v24) (V c main_arg6) (V c main_arg8) (V c main_v44) (((cfg1.win 5).blk t).view.emb (ix2 p q))
  rw [he]
  simp only [h0, h1, h2, h3, h4]
  rfl

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Row `r` lies in the block of point `r / 5000`: the 20 blocks cover the output array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  refine ⟨⟨(i 0).val / 5000, hN⟩, flush1_5 _, ?_⟩
  rw [mem_blk]
  obtain ⟨-, -, -, -, -, -, -, -, -, -, e50, e51⟩ := idx_facts ⟨(i 0).val / 5000, hN⟩
  intro a
  match a with
  | ⟨0, _⟩ => show win1_5.index _ (0 : Fin 2) * 5000 ≤ (i 0).val ∧ (i 0).val < win1_5.index _ (0 : Fin 2) * 5000 + 5000; rw [e50]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e51]; omega

/-- The output array after the region: `layer` of the arrays as the region finds them. -/
theorem final (c : Dev nD) : (dat1 V c).arrAt 5 cfg1.N
    = layer (V c main_v43) (V c main_v24) (V c main_arg6) (V c main_arg8) (V c main_v44) :=
  (dat1 V c).arrAt_eq_of_cover 5 _ (fun t _ => flushed_eq V c t) cover

end Cert.KernelIdeal.Layer1

end
-- ==== Proof.Layer2.lean ====
import proofs.«177792_j52475910422832_1_alg».proof.Proof.Gen.KernelIdeal.Frame
import proofs.«177792_j52475910422832_1_alg».proof.Proof.Products
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Idealize.ShloMosaic Idealize.ShloMosaic.TcCoe Idealize.SL.Sem Idealize.ShloMosaic.ValueIdx
open Cert.KernelIdeal Cert.KernelIdeal.Gen Cert.KernelIdeal.Products
open Idealize.ShloMosaic.Pipeline (Dat Cfg Window)

/-! # Kernel region 2: one graph-convolution layer over all nodes

The region walks the 100000 nodes in 20 blocks of 5000 rows. At each block it multiplies the block of aggregated neighbour
features by the left weights, the block of the nodes' own features by the right weights, adds the two products and the bias
row. Each output row depends only on the same row of the two feature arrays, so the 20 blocks written
back are the restrictions of ONE whole-array function, `layer`, and they tile the output array. -/

variable (V : (c : Dev nD) → (b : Ref sig .tc) → Buf (Elt Ideal) ((c : Thread nD τ).loc b))

theorem hz : (![0, 0] : Fin 2 → Nat) = fun _ => 0 := funext fun a => by fin_cases a <;> rfl

/-- The layer as a function of whole arrays: entry (r, j) is Σₖ A[r,k]·Wl[k,j] + Σₖ H[r,k]·Wr[k,j] + b[0,j]. -/
def layer (A H : S100000x128.Idx → Ideal .f32) (Wl Wr : S128x128.Idx → Ideal .f32) (b : S1x128.Idx → Ideal .f32) : S100000x128.Idx → Ideal .f32 :=
  fun i => ((∑ k : Fin 128, A (ix2 (i 0) k) * Wl (ix2 k (i 1))) + (∑ k : Fin 128, H (ix2 (i 0) k) * Wr (ix2 k (i 1)))) + b (ix2 (0 : Fin 1) (i 1))

/-- The body's stored value at row `p`, column `q` of the block, from the loaded blocks: the two products are plain sums over
    the contracted axis (a change of float format is the identity on the extended reals), the bias row is read at column `q`. -/
theorem pay_apply (x0 x1 : Vec Ideal S5000x128 .f32) (x2 x4 : Vec Ideal S128x128 .f32) (x3 : Vec Ideal S1x128 .f32) (p : Fin 5000) (q : Fin 128) :
    k2_pay1 (F := Ideal) x0 x1 x2 x4 x3 (ix2 p q)
      = ((∑ k : Fin 128, x0 (ix2 p k) * x2 (ix2 k q)) + (∑ k : Fin 128, x1 (ix2 p k) * x4 (ix2 k q))) + x3 (ix2 (0 : Fin 1) q) := by
  unfold k2_pay1
  simp only [addf_apply, shapeCast_self]
  rw [dot_S5000x128_S128x128_S5000x128_1_0_0_1_n_n_apply, dot_S5000x128_S128x128_S5000x128_1_0_0_1_n_n_apply, broadcastTo_1b_ab_apply]
  rfl

/-- The printed index maps, decided over the 20 grid points: the two feature windows and the output window move together
    down the rows (block `t` at point `t`), the weights and the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `layer` of the arrays as the region finds them. -/
theorem flushed_eq (c : Dev nD) (t : Fin cfg2.N) :
    (dat2 V c).flushed 5 t = ((cfg2.win 5).blk t).view.read (Elt Ideal)
      (layer (V c main_v64) (V c main_v45) (V c main_arg9) (V c main_arg11) (V c main_v65)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  have ht : t.val < 20 := lt_of_lt_of_eq t.isLt N_2
  funext j
  obtain ⟨p, q, rfl⟩ : ∃ (p : Fin 5000) (q : Fin 128), j = ix2 p q := ⟨j 0, j 1, eq_ix2 j⟩
  refine (pay_apply _ _ _ _ _ p q).trans ?_
  have hr : t.val * 5000 + p.val < 100000 := by have := p.isLt; omega
  have he : ((cfg2.win 5).blk t).view.emb (ix2 p q) = (ix2 (⟨t.val * 5000 + p.val, hr⟩ : Fin 100000) q : S100000x128.Idx) :=
    funext fun a => Fin.ext (by
      match a with
      | ⟨0, _⟩ => show win2_5.index t (0 : Fin 2) * 5000 + 1 * p.val = t.val * 5000 + p.val; omega
      | ⟨1, _⟩ => show win2_5.index t (1 : Fin 2) * 128 + 1 * q.val = q.val; omega)
  have h0 : ∀ k : Fin 128, iblk2 V c 0 t (ix2 p k) = V c main_v64 (ix2 (⟨t.val * 5000 + p.val, hr⟩ : Fin 100000) k : S100000x128.Idx) := fun k => by
    show V c main_v64 (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix2 p k) = V c main_v45 (ix2 (⟨t.val * 5000 + p.val, hr⟩ : Fin 100000) k : S100000x128.Idx) := fun k => by
    show V c main_v45 (((cfg2.win 1).blk t).view.emb (ix2 p k)) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  have h2 : ∀ k : Fin 128, iblk2 V c 2 t (ix2 k q) = V c main_arg9 (ix2 k q : S128x128.Idx) := fun k => by
    show V c main_arg9 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  have h4 : ∀ k : Fin 128, iblk2 V c 4 t (ix2 k q) = V c main_arg11 (ix2 k q : S128x128.Idx) := fun k => by
    show V c main_arg11 (((cfg2.win 4).blk t).view.emb (ix2 k q)) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = q.val; omega
  have h3 : iblk2 V c 3 t (ix2 (0 : Fin 1) q) = V c main_v65 (ix2 (0 : Fin 1) q : S1x128.Idx) := by
    show V c main_v65 (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  show _ = layer (V c main_v64) (V c main_v45) (V c main_arg9) (V c main_arg11) (V c main_v65) (((cfg2.win 5).blk t).view.emb (ix2 p q))
  rw [he]
  simp only [h0, h1, h2, h3, h4]
  rfl

/-- An index of the output array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v66).slice (win2_5.rect t)).set ↔ _
  rw [View.set_slice_whole, Rect.mem_set_unit]
  exact Iff.rfl

/-- Row `r` lies in the block of point `r / 5000`: the 20 blocks cover the output array. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  refine ⟨⟨(i 0).val / 5000, hN⟩, flush2_5 _, ?_⟩
  rw [mem_blk]
  obtain ⟨-, -, -, -, -, -, -, -, -, -, e50, e51⟩ := idx_facts ⟨(i 0).val / 5000, hN⟩
  intro a
  match a with
  | ⟨0, _⟩ => show win2_5.index _ (0 : Fin 2) * 5000 ≤ (i 0).val ∧ (i 0).val < win2_5.index _ (0 : Fin 2) * 5000 + 5000; rw [e50]; show (i 0).val / 5000 * 5000 ≤ (i 0).val ∧ (i 0).val < (i 0).val / 5000 * 5000 + 5000; omega
  | ⟨1, _⟩ => show win2_5.index _ (1 : Fin 2) * 128 ≤ (i 1).val ∧ (i 1).val < win2_5.index _ (1 : Fin 2) * 128 + 128; rw [e51]; omega

/-- The output array after the region: `layer` of the arrays as the region finds them. -/
theorem final (c : Dev nD) : (dat2 V c).arrAt 5 cfg2.N
    = layer (V c main_v64) (V c main_v45) (V c main_arg9) (V c main_arg11) (V c main_v65) :=
  (dat2 V c).arrAt_eq_of_cover 5 _ (fun t _ => flushed_eq V c t) cover

end Cert.KernelIdeal.Layer2

end
-- ==== Proof.Readout.lean ====
import proofs.«177792_j52475910422832_1_alg».proof.Proof.Gen.KernelIdeal.Frame
import proofs.«177792_j52475910422832_1_alg».proof.Proof.Products
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Readout

open Idealize.ShloMosaic Idealize.ShloMosaic.TcCoe Idealize.SL.Sem Idealize.ShloMosaic.ValueIdx
open Cert.KernelIdeal Cert.KernelIdeal.Gen Cert.KernelIdeal.Products
open Idealize.ShloMosaic.Pipeline (Dat Cfg Window)

/-! # Kernel region 3: the final linear map on the pooled graph features

One grid point: the whole 512 × 128 array of pooled features times the 128 × 2 weights, plus the bias row. The one block
written back is the whole output array. -/

variable (V : (c : Dev nD) → (b : Ref sig .tc) → Buf (Elt Ideal) ((c : Thread nD τ).loc b))

theorem hz : (![0, 0] : Fin 2 → Nat) = fun _ => 0 := funext fun a => by fin_cases a <;> rfl

/-- The linear map as a function of whole arrays: entry (g, j) is Σₖ P[g,k]·W[k,j] + b[0,j]. -/
def linear (P : S512x128.Idx → Ideal .f32) (W : S128x2.Idx → Ideal .f32) (b : S1x2.Idx → Ideal .f32) : S512x2.Idx → Ideal .f32 :=
  fun i => (∑ k : Fin 128, P (ix2 (i 0) k) * W (ix2 k (i 1))) + b (ix2 (0 : Fin 1) (i 1))

/-- The body's stored value at row `p`, column `q`: the product is a plain sum over the contracted axis, the bias row is
    read at column `q`. -/
theorem pay_apply (x0 : Vec Ideal S512x128 .f32) (x1 : Vec Ideal S128x2 .f32) (x2 : Vec Ideal S1x2 .f32) (p : Fin 512) (q : Fin 2) :
    k3_pay1 (F := Ideal) x0 x1 x2 (ix2 p q) = (∑ k : Fin 128, x0 (ix2 p k) * x1 (ix2 k q)) + x2 (ix2 (0 : Fin 1) q) := by
  unfold k3_pay1
  simp only [addf_apply, shapeCast_self]
  rw [dot_S512x128_S128x2_S512x2_1_0_0_1_n_n_apply, broadcastTo_1b_ab_apply]
  rfl

/-- The printed index maps at the one grid point: every window at block 0. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the one point writes back is the whole of `linear` of the arrays as the region finds them. -/
theorem flushed_eq (c : Dev nD) (t : Fin cfg3.N) :
    (dat3 V c).flushed 3 t = ((cfg3.win 3).blk t).view.read (Elt Ideal)
      (linear (V c main_v78) (V c main_arg12) (V c main_v79)) := by
  show (cfg3.win 3).cut (grid3.coords t) ((dat3 V c).after 3 t) = _
  rw [after3_3]
  unfold out3_3
  rw [View.canon_unit_zero hz]
  simp only [View.ld_unit_zero (S := S512x128) hz, View.ld_unit_zero (S := S128x2) hz, View.ld_unit_zero (S := S1x2) hz]
  obtain ⟨e00, e01, e10, e11, e20, e21, e30, e31⟩ := idx_facts t
  funext j
  obtain ⟨p, q, rfl⟩ : ∃ (p : Fin 512) (q : Fin 2), j = ix2 p q := ⟨j 0, j 1, eq_ix2 j⟩
  refine (pay_apply _ _ _ p q).trans ?_
  have he : ((cfg3.win 3).blk t).view.emb (ix2 p q) = (ix2 p q : S512x2.Idx) :=
    funext fun a => Fin.ext (by
      match a with
      | ⟨0, _⟩ => show win3_3.index t (0 : Fin 2) * 512 + 1 * p.val = p.val; omega
      | ⟨1, _⟩ => show win3_3.index t (1 : Fin 2) * 2 + 1 * q.val = q.val; omega)
  have h0 : ∀ k : Fin 128, iblk3 V c 0 t (ix2 p k) = V c main_v78 (ix2 p k : S512x128.Idx) := fun k => by
    show V c main_v78 (((cfg3.win 0).blk t).view.emb (ix2 p k)) = _
    refine congrArg _ (funext fun a => Fin.ext ?_)
    match a with
    | ⟨0, _⟩ => show win3_0.index t (0 : Fin 2) * 512 + 1 * p.val = p.val; omega
    | ⟨1, _⟩ => show win3_0.index t (1 : Fin 2) * 128 + 1 * k.val = k.val; omega
  have h1 : ∀ k : Fin 128, iblk3 V c 1 t (ix2 k q) = V c main_arg12 (ix2 k q : S128x2.Idx) := fun k => by
    show V c main_arg12 (((cfg3.win 1).blk t).view.emb (ix2 k q)) = _
    refine congrArg _ (funext fun a => Fin.ext ?_)
    match a with
    | ⟨0, _⟩ => show win3_1.index t (0 : Fin 2) * 128 + 1 * k.val = k.val; omega
    | ⟨1, _⟩ => show win3_1.index t (1 : Fin 2) * 2 + 1 * q.val = q.val; omega
  have h2 : iblk3 V c 2 t (ix2 (0 : Fin 1) q) = V c main_v79 (ix2 (0 : Fin 1) q : S1x2.Idx) := by
    show V c main_v79 (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 2 + 1 * q.val = q.val; omega
  show _ = linear (V c main_v78) (V c main_arg12) (V c main_v79) (((cfg3.win 3).blk t).view.emb (ix2 p q))
  rw [he]
  simp only [h0, h1, h2]
  rfl

/-- An index of the output array is in the point's block iff each coordinate is in the block's range on its axis. -/
theorem mem_blk (t : Fin cfg3.N) (i : S512x2.Idx) :
    i ∈ ((cfg3.win 3).blk t).view.set ↔ ∀ a : Fin 2, win3_3.index t a * S512x2.size a ≤ (i a).val ∧ (i a).val < win3_3.index t a * S512x2.size a + S512x2.size a := by
  show i ∈ ((View.whole main_v80).slice (win3_3.rect t)).set ↔ _
  rw [View.set_slice_whole, Rect.mem_set_unit]
  exact Iff.rfl

/-- The one block is the whole output array. -/
theorem cover (i : S512x2.Idx) : ∃ t : Fin cfg3.N, (cfg3.win 3).flush t = true ∧ i ∈ ((cfg3.win 3).blk t).view.set := by
  have hi0 : (i 0).val < 512 := (i 0).isLt
  have hi1 : (i 1).val < 2 := (i 1).isLt
  refine ⟨t3_0, flush3_3 _, ?_⟩
  rw [mem_blk]
  obtain ⟨-, -, -, -, -, -, e30, e31⟩ := idx_facts t3_0
  intro a
  match a with
  | ⟨0, _⟩ => show win3_3.index _ (0 : Fin 2) * 512 ≤ (i 0).val ∧ (i 0).val < win3_3.index _ (0 : Fin 2) * 512 + 512; rw [e30]; omega
  | ⟨1, _⟩ => show win3_3.index _ (1 : Fin 2) * 2 ≤ (i 1).val ∧ (i 1).val < win3_3.index _ (1 : Fin 2) * 2 + 2; rw [e31]; omega

/-- The output array after the region: `linear` of the arrays as the region finds them. -/
theorem final (c : Dev nD) : (dat3 V c).arrAt 3 cfg3.N = linear (V c main_v78) (V c main_arg12) (V c main_v79) :=
  (dat3 V c).arrAt_eq_of_cover 3 _ (fun t _ => flushed_eq V c t) cover

end Cert.KernelIdeal.Readout

end
-- ==== Proof.RefLayers.lean ====
import proofs.«177792_j52475910422832_1_alg».proof.Proof.Gen.ReferenceIdeal.Read
import proofs.«177792_j52475910422832_1_alg».proof.Proof.Layer0
import proofs.«177792_j52475910422832_1_alg».proof.Proof.Layer1
import proofs.«177792_j52475910422832_1_alg».proof.Proof.Layer2
import proofs.«177792_j52475910422832_1_alg».proof.Proof.Readout

set_option maxRecDepth 16384

noncomputable section

namespace Cert.ReferenceIdeal.Layers

open Idealize.ShloMosaic Idealize.ShloMosaic.TcCoe Idealize.SL.Sem Idealize.ShloMosaic.ValueIdx
open Cert.ReferenceIdeal Cert.ReferenceIdeal.Read

/-! # The reference's layers are the kernel's layer functions

The reference computes each graph-convolution layer on whole arrays as (A·Wl + b) + H·Wr, the kernel as (A·Wl + H·Wr) + b.
On the extended reals addition is commutative and associative (also at the infinities), so the two groupings agree
entry by entry; the matrix products are the same sums over the contracted axis, and the bias is read at the same column. -/

/-- The first layer's output (after the clamp at zero) is the kernel's first layer function of the first aggregate, the node features, the weights and the bias row. -/
theorem h1_eq (x0 : (⟨S100000x20, .f32⟩ : BufTy).Contents (Elt Ideal)) (x1 : (⟨S2x800000, .i32⟩ : BufTy).Contents (Elt Ideal)) (x3 : (⟨S20x128, .f32⟩ : BufTy).Contents (Elt Ideal)) (x4 : (⟨S128, .f32⟩ : BufTy).Contents (Elt Ideal)) (x5 : (⟨S20x128, .f32⟩ : BufTy).Contents (Elt Ideal)) :
    val_main_v29 (F := Ideal) x0 x1 x3 x4 x5 = Cert.KernelIdeal.Layer0.layer (val_main_v22 (F := Ideal) x0 x1) (x0) x3 x5 (val_main_v24 (F := Ideal) x4) := by
  funext i
  rw [val_main_v29_apply, val_main_v28_apply, val_main_v26_apply, val_main_v23_apply, val_main_v25_apply, val_main_v27_apply, val_main_call0_v0_apply, val_main_call0_cst_apply]
  have e1 : ∀ k : Fin 20, lidx_main_v23 i k = ix2 (i 0) k := fun k => funext fun a => by
    match a with
    | ⟨0, _⟩ => rfl
    | ⟨1, _⟩ => rfl
  have e2 : ∀ k : Fin 20, ridx_main_v23 i k = ix2 k (i 1) := fun k => funext fun a => by
    match a with
    | ⟨0, _⟩ => rfl
    | ⟨1, _⟩ => rfl
  have e3 : ∀ k : Fin 20, lidx_main_v27 i k = ix2 (i 0) k := fun k => funext fun a => by
    match a with
    | ⟨0, _⟩ => rfl
    | ⟨1, _⟩ => rfl
  have e4 : ∀ k : Fin 20, ridx_main_v27 i k = ix2 k (i 1) := fun k => funext fun a => by
    match a with
    | ⟨0, _⟩ => rfl
    | ⟨1, _⟩ => rfl
  have e5 : idx_main_v25 i = ix2 (0 : Fin 1) (i 1) := funext fun a => by
    match a with
    | ⟨0, _⟩ => rfl
    | ⟨1, _⟩ => rfl
  simp only [e1, e2, e3, e4, e5, Ideal.addf_def, Ideal.maximumf_def, Ideal.ofBits_def]
  unfold Cert.KernelIdeal.Layer0.layer
  rw [add_right_comm]
  rfl

/-- The second layer's output is the kernel's second layer function of the second aggregate and the first layer's output. -/
theorem h2_eq (x0 : (⟨S100000x20, .f32⟩ : BufTy).Contents (Elt Ideal)) (x1 : (⟨S2x800000, .i32⟩ : BufTy).Contents (Elt Ideal)) (x3 : (⟨S20x128, .f32⟩ : BufTy).Contents (Elt Ideal)) (x4 : (⟨S128, .f32⟩ : BufTy).Contents (Elt Ideal)) (x5 : (⟨S20x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v55 (F := Ideal) x0 x1 x3 x4 x5 x6 x7 x8 = Cert.KernelIdeal.Layer1.layer (val_main_v48 (F := Ideal) x0 x1 x3 x4 x5) (val_main_v29 (F := Ideal) x0 x1 x3 x4 x5) x6 x8 (val_main_v50 (F := Ideal) x7) := by
  funext i
  rw [val_main_v55_apply, val_main_v54_apply, val_main_v52_apply, val_main_v49_apply, val_main_v51_apply, val_main_v53_apply, val_main_call1_v0_apply, val_main_call1_cst_apply]
  have e1 : ∀ k : Fin 128, lidx_main_v49 i k = ix2 (i 0) k := fun k => funext fun a => by
    match a with
    | ⟨0, _⟩ => rfl
    | ⟨1, _⟩ => rfl
  have e2 : ∀ k : Fin 128, ridx_main_v49 i k = ix2 k (i 1) := fun k => funext fun a => by
    match a with
    | ⟨0, _⟩ => rfl
    | ⟨1, _⟩ => rfl
  have e3 : ∀ k : Fin 128, lidx_main_v53 i k = ix2 (i 0) k := fun k => funext fun a => by
    match a with
    | ⟨0, _⟩ => rfl
    | ⟨1, _⟩ => rfl
  have e4 : ∀ k : Fin 128, ridx_main_v53 i k = ix2 k (i 1) := fun k => funext fun a => by
    match a with
    | ⟨0, _⟩ => rfl
    | ⟨1, _⟩ => rfl
  have e5 : idx_main_v51 i = ix2 (0 : Fin 1) (i 1) := funext fun a => by
    match a with
    | ⟨0, _⟩ => rfl
    | ⟨1, _⟩ => rfl
  simp only [e1, e2, e3, e4, e5, Ideal.addf_def, Ideal.maximumf_def, Ideal.ofBits_def]
  unfold Cert.KernelIdeal.Layer1.layer
  rw [add_right_comm]
  rfl

/-- The third layer's output (no clamp) is the kernel's third layer function of the third aggregate and the second layer's output. -/
theorem h3_eq (x0 : (⟨S100000x20, .f32⟩ : BufTy).Contents (Elt Ideal)) (x1 : (⟨S2x800000, .i32⟩ : BufTy).Contents (Elt Ideal)) (x3 : (⟨S20x128, .f32⟩ : BufTy).Contents (Elt Ideal)) (x4 : (⟨S128, .f32⟩ : BufTy).Contents (Elt Ideal)) (x5 : (⟨S20x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v80 (F := Ideal) x0 x1 x3 x4 x5 x6 x7 x8 x9 x10 x11 = Cert.KernelIdeal.Layer2.layer (val_main_v74 (F := Ideal) x0 x1 x3 x4 x5 x6 x7 x8) (val_main_v55 (F := Ideal) x0 x1 x3 x4 x5 x6 x7 x8) x9 x11 (val_main_v76 (F := Ideal) x10) := by
  funext i
  rw [val_main_v80_apply, val_main_v78_apply, val_main_v75_apply, val_main_v77_apply, val_main_v79_apply]
  have e1 : ∀ k : Fin 128, lidx_main_v75 i k = ix2 (i 0) k := fun k => funext fun a => by
    match a with
    | ⟨0, _⟩ => rfl
    | ⟨1, _⟩ => rfl
  have e2 : ∀ k : Fin 128, ridx_main_v75 i k = ix2 k (i 1) := fun k => funext fun a => by
    match a with
    | ⟨0, _⟩ => rfl
    | ⟨1, _⟩ => rfl
  have e3 : ∀ k : Fin 128, lidx_main_v79 i k = ix2 (i 0) k := fun k => funext fun a => by
    match a with
    | ⟨0, _⟩ => rfl
    | ⟨1, _⟩ => rfl
  have e4 : ∀ k : Fin 128, ridx_main_v79 i k = ix2 k (i 1) := fun k => funext fun a => by
    match a with
    | ⟨0, _⟩ => rfl
    | ⟨1, _⟩ => rfl
  have e5 : idx_main_v77 i = ix2 (0 : Fin 1) (i 1) := funext fun a => by
    match a with
    | ⟨0, _⟩ => rfl
    | ⟨1, _⟩ => rfl
  simp only [e1, e2, e3, e4, e5, Ideal.addf_def]
  unfold Cert.KernelIdeal.Layer2.layer
  rw [add_right_comm]
  rfl

/-- The reference's result is the kernel's final linear map of the pooled features, the last weights and the last bias row. -/
theorem out_eq (x0 : (⟨S100000x20, .f32⟩ : BufTy).Contents (Elt Ideal)) (x1 : (⟨S2x800000, .i32⟩ : BufTy).Contents (Elt Ideal)) (x2 : (⟨S100000, .i32⟩ : BufTy).Contents (Elt Ideal)) (x3 : (⟨S20x128, .f32⟩ : BufTy).Contents (Elt Ideal)) (x4 : (⟨S128, .f32⟩ : BufTy).Contents (Elt Ideal)) (x5 : (⟨S20x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x2, .f32⟩ : BufTy).Contents (Elt Ideal)) (x13 : (⟨S2, .f32⟩ : BufTy).Contents (Elt Ideal)) :
    val_main_v96 (F := Ideal) x0 x1 x2 x3 x4 x5 x6 x7 x8 x9 x10 x11 x12 x13
      = Cert.KernelIdeal.Readout.linear (val_main_v92 (F := Ideal) x0 x1 x2 x3 x4 x5 x6 x7 x8 x9 x10 x11) x12 (val_main_v94 (F := Ideal) x13) := by
  funext i
  rw [val_main_v96_apply, val_main_v93_apply, val_main_v95_apply]
  have e1 : ∀ k : Fin 128, lidx_main_v93 i k = ix2 (i 0) k := fun k => funext fun a => by
    match a with
    | ⟨0, _⟩ => rfl
    | ⟨1, _⟩ => rfl
  have e2 : ∀ k : Fin 128, ridx_main_v93 i k = ix2 k (i 1) := fun k => funext fun a => by
    match a with
    | ⟨0, _⟩ => rfl
    | ⟨1, _⟩ => rfl
  have e5 : idx_main_v95 i = ix2 (0 : Fin 1) (i 1) := funext fun a => by
    match a with
    | ⟨0, _⟩ => rfl
    | ⟨1, _⟩ => rfl
  simp only [e1, e2, e5, Ideal.addf_def]
  rfl

end Cert.ReferenceIdeal.Layers

end
-- ==== Proof.Stage1.lean ====
import proofs.«177792_j52475910422832_1_alg».proof.Proof.Gen.KernelIdeal.Frame
import proofs.«177792_j52475910422832_1_alg».proof.Proof.Gen.ReferenceIdeal.Read
import proofs.«177792_j52475910422832_1_alg».proof.Proof.Layer0
import proofs.«177792_j52475910422832_1_alg».proof.Proof.RefLayers

set_option maxRecDepth 16384

noncomputable section

namespace Cert.KernelIdeal.Stage1

open Cert.KernelIdeal Cert.KernelIdeal.Gen
open Idealize.ShloMosaic Idealize.ShloMosaic.TcCoe Idealize.SL.Sem Idealize.ShloMosaic.StableHlo

/-! # The kernel program up to the first layer's output

Before the first kernel region the host computes the mean of each node's incoming neighbours' features (a gather along the
edges' sources, a scatter-add onto their targets, a division by the clamped in-degree) with exactly the operations the
reference uses, so that array IS the reference's first aggregate, term for term. The region then leaves the first layer
function of it in its output array, which is the reference's first hidden array. Buffers that later stretches read again
(the edges' source and target rows, the remaining arguments) are carried along unchanged. -/

variable (m : (ℓ : Loc nD τ sig) → Buf (Elt Ideal) ℓ) (ρ : Dev nD → PrngReg) (c : Dev nD)

/-- The first aggregate is the reference's. -/
theorem agg1 : W1 m ρ c (Proc.devRef .tc main_v22) = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  all_goals rfl

/-- The first bias, as a row. -/
theorem bias1 : W1 m ρ c (Proc.devRef .tc main_v23) = Cert.ReferenceIdeal.Read.val_main_v24 (F := Ideal) (m ((c : Thread nD τ).loc main_arg4)) := by
  show StableHlo.after hostOps0 (W0 m ρ c) (Proc.devRef .tc main_v23) = _
  after_results_simp
  all_goals rfl

/-- Argument 0 as the first region finds it. -/
theorem in1_arg0 : W1 m ρ c (Proc.devRef .tc main_arg0) = (m ((c : Thread nD τ).loc main_arg0)) := by
  show StableHlo.after hostOps0 (W0 m ρ c) (Proc.devRef .tc main_arg0) = _
  after_results_simp
  all_goals rfl

/-- Argument 3 as the first region finds it. -/
theorem in1_arg3 : W1 m ρ c (Proc.devRef .tc main_arg3) = (m ((c : Thread nD τ).loc main_arg3)) := by
  show StableHlo.after hostOps0 (W0 m ρ c) (Proc.devRef .tc main_arg3) = _
  after_results_simp
  all_goals rfl

/-- Argument 5 as the first region finds it. -/
theorem in1_arg5 : W1 m ρ c (Proc.devRef .tc main_arg5) = (m ((c : Thread nD τ).loc main_arg5)) := by
  show StableHlo.after hostOps0 (W0 m ρ c) (Proc.devRef .tc main_arg5) = _
  after_results_simp
  all_goals rfl

/-- The edges' source row. -/
theorem src1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  all_goals rfl

/-- The edges' target row. -/
theorem dst1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  all_goals rfl

/-- Argument 2 is untouched by the first stretch. -/
theorem keep1_arg2 : W1 m ρ c (Proc.devRef .tc main_arg2) = (m ((c : Thread nD τ).loc main_arg2)) := by
  show StableHlo.after hostOps0 (W0 m ρ c) (Proc.devRef .tc main_arg2) = _
  after_results_simp
  all_goals rfl

/-- Argument 6 is untouched by the first stretch. -/
theorem keep1_arg6 : W1 m ρ c (Proc.devRef .tc main_arg6) = (m ((c : Thread nD τ).loc main_arg6)) := by
  show StableHlo.after hostOps0 (W0 m ρ c) (Proc.devRef .tc main_arg6) = _
  after_results_simp
  all_goals rfl

/-- Argument 7 is untouched by the first stretch. -/
theorem keep1_arg7 : W1 m ρ c (Proc.devRef .tc main_arg7) = (m ((c : Thread nD τ).loc main_arg7)) := by
  show StableHlo.after hostOps0 (W0 m ρ c) (Proc.devRef .tc main_arg7) = _
  after_results_simp
  all_goals rfl

/-- Argument 8 is untouched by the first stretch. -/
theorem keep1_arg8 : W1 m ρ c (Proc.devRef .tc main_arg8) = (m ((c : Thread nD τ).loc main_arg8)) := by
  show StableHlo.after hostOps0 (W0 m ρ c) (Proc.devRef .tc main_arg8) = _
  after_results_simp
  all_goals rfl

/-- Argument 9 is untouched by the first stretch. -/
theorem keep1_arg9 : W1 m ρ c (Proc.devRef .tc main_arg9) = (m ((c : Thread nD τ).loc main_arg9)) := by
  show StableHlo.after hostOps0 (W0 m ρ c) (Proc.devRef .tc main_arg9) = _
  after_results_simp
  all_goals rfl

/-- Argument 10 is untouched by the first stretch. -/
theorem keep1_arg10 : W1 m ρ c (Proc.devRef .tc main_arg10) = (m ((c : Thread nD τ).loc main_arg10)) := by
  show StableHlo.after hostOps0 (W0 m ρ c) (Proc.devRef .tc main_arg10) = _
  after_results_simp
  all_goals rfl

/-- Argument 11 is untouched by the first stretch. -/
theorem keep1_arg11 : W1 m ρ c (Proc.devRef .tc main_arg11) = (m ((c : Thread nD τ).loc main_arg11)) := by
  show StableHlo.after hostOps0 (W0 m ρ c) (Proc.devRef .tc main_arg11) = _
  after_results_simp
  all_goals rfl

/-- Argument 12 is untouched by the first stretch. -/
theorem keep1_arg12 : W1 m ρ c (Proc.devRef .tc main_arg12) = (m ((c : Thread nD τ).loc main_arg12)) := by
  show StableHlo.after hostOps0 (W0 m ρ c) (Proc.devRef .tc main_arg12) = _
  after_results_simp
  all_goals rfl

/-- Argument 13 is untouched by the first stretch. -/
theorem keep1_arg13 : W1 m ρ c (Proc.devRef .tc main_arg13) = (m ((c : Thread nD τ).loc main_arg13)) := by
  show StableHlo.after hostOps0 (W0 m ρ c) (Proc.devRef .tc main_arg13) = _
  after_results_simp
  all_goals rfl

/-- After the first region its output array is the reference's first hidden array. -/
theorem h1 : W2 m ρ c (Proc.devRef .tc main_v24) = Cert.ReferenceIdeal.Read.val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Cert.KernelIdeal.Layer0.final (V1 m ρ) c).trans ?_)
  rw [show V1 m ρ c main_v22 = _ from agg1 m ρ c, show V1 m ρ c main_v23 = _ from bias1 m ρ c, show V1 m ρ c main_arg0 = _ from in1_arg0 m ρ c,
    show V1 m ρ c main_arg3 = _ from in1_arg3 m ρ c, show V1 m ρ c main_arg5 = _ from in1_arg5 m ρ c]
  exact (Cert.ReferenceIdeal.Layers.h1_eq _ _ _ _ _).symm

/-- The first region leaves the edges' source row in place. -/
theorem src2 : W2 m ρ c (Proc.devRef .tc main_v1) = Cert.ReferenceIdeal.Read.val_main_v1 (F := Ideal) (m ((c : Thread nD τ).loc main_arg1)) :=
  (W2_of_ne m ρ c main_v1 (by decide)).trans (src1 m ρ c)
/-- The first region leaves the edges' target row in place. -/
theorem dst2 : W2 m ρ c (Proc.devRef .tc main_v3) = Cert.ReferenceIdeal.Read.val_main_v3 (F := Ideal) (m ((c : Thread nD τ).loc main_arg1)) :=
  (W2_of_ne m ρ c main_v3 (by decide)).trans (dst1 m ρ c)
/-- The first region leaves argument 2 in place. -/
theorem keep2_arg2 : W2 m ρ c (Proc.devRef .tc main_arg2) = (m ((c : Thread nD τ).loc main_arg2)) :=
  (W2_of_ne m ρ c main_arg2 (by decide)).trans (keep1_arg2 m ρ c)
/-- The first region leaves argument 6 in place. -/
theorem keep2_arg6 : W2 m ρ c (Proc.devRef .tc main_arg6) = (m ((c : Thread nD τ).loc main_arg6)) :=
  (W2_of_ne m ρ c main_arg6 (by decide)).trans (keep1_arg6 m ρ c)
/-- The first region leaves argument 7 in place. -/
theorem keep2_arg7 : W2 m ρ c (Proc.devRef .tc main_arg7) = (m ((c : Thread nD τ).loc main_arg7)) :=
  (W2_of_ne m ρ c main_arg7 (by decide)).trans (keep1_arg7 m ρ c)
/-- The first region leaves argument 8 in place. -/
theorem keep2_arg8 : W2 m ρ c (Proc.devRef .tc main_arg8) = (m ((c : Thread nD τ).loc main_arg8)) :=
  (W2_of_ne m ρ c main_arg8 (by decide)).trans (keep1_arg8 m ρ c)
/-- The first region leaves argument 9 in place. -/
theorem keep2_arg9 : W2 m ρ c (Proc.devRef .tc main_arg9) = (m ((c : Thread nD τ).loc main_arg9)) :=
  (W2_of_ne m ρ c main_arg9 (by decide)).trans (keep1_arg9 m ρ c)
/-- The first region leaves argument 10 in place. -/
theorem keep2_arg10 : W2 m ρ c (Proc.devRef .tc main_arg10) = (m ((c : Thread nD τ).loc main_arg10)) :=
  (W2_of_ne m ρ c main_arg10 (by decide)).trans (keep1_arg10 m ρ c)
/-- The first region leaves argument 11 in place. -/
theorem keep2_arg11 : W2 m ρ c (Proc.devRef .tc main_arg11) = (m ((c : Thread nD τ).loc main_arg11)) :=
  (W2_of_ne m ρ c main_arg11 (by decide)).trans (keep1_arg11 m ρ c)
/-- The first region leaves argument 12 in place. -/
theorem keep2_arg12 : W2 m ρ c (Proc.devRef .tc main_arg12) = (m ((c : Thread nD τ).loc main_arg12)) :=
  (W2_of_ne m ρ c main_arg12 (by decide)).trans (keep1_arg12 m ρ c)
/-- The first region leaves argument 13 in place. -/
theorem keep2_arg13 : W2 m ρ c (Proc.devRef .tc main_arg13) = (m ((c : Thread nD τ).loc main_arg13)) :=
  (W2_of_ne m ρ c main_arg13 (by decide)).trans (keep1_arg13 m ρ c)

end Cert.KernelIdeal.Stage1

end
-- ==== Proof.Stage2.lean ====
import proofs.«177792_j52475910422832_1_alg».proof.Proof.Stage1
import proofs.«177792_j52475910422832_1_alg».proof.Proof.Layer1

set_option maxRecDepth 16384

noncomputable section

namespace Cert.KernelIdeal.Stage2

open Cert.KernelIdeal Cert.KernelIdeal.Gen
open Idealize.ShloMosaic Idealize.ShloMosaic.TcCoe Idealize.SL.Sem Idealize.ShloMosaic.StableHlo

/-! # The kernel program up to the second layer's output

The second stretch of host operations aggregates the first hidden array over the edges exactly as the reference does, so
with the first hidden array already the reference's, the second aggregate is the reference's too; the second region leaves
the second layer function of it, the reference's second hidden array. -/

variable (m : (ℓ : Loc nD τ sig) → Buf (Elt Ideal) ℓ) (ρ : Dev nD → PrngReg) (c : Dev nD)

/-- The second aggregate is the reference's. -/
theorem agg2 : W3 m ρ c (Proc.devRef .tc main_v43) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v43) = _
  after_results_simp
  rw [Stage1.h1 m ρ c, Stage1.src2 m ρ c, Stage1.dst2 m ρ c]
  all_goals rfl

/-- The second bias, as a row. -/
theorem bias2 : W3 m ρ c (Proc.devRef .tc main_v44) = Cert.ReferenceIdeal.Read.val_main_v50 (F := Ideal) (m ((c : Thread nD τ).loc main_arg7)) := by
  show StableHlo.after hostOps1 (W2 m ρ c) (Proc.devRef .tc main_v44) = _
  after_results_simp
  rw [Stage1.keep2_arg7 m ρ c]
  all_goals rfl

/-- The first hidden array as the second region finds it. -/
theorem in2_h1 : W3 m ρ c (Proc.devRef .tc main_v24) = Cert.ReferenceIdeal.Read.val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v24) = _
  after_results_simp
  rw [Stage1.h1 m ρ c]
  all_goals rfl

/-- Argument 6 as the second region finds it. -/
theorem in2_arg6 : W3 m ρ c (Proc.devRef .tc main_arg6) = (m ((c : Thread nD τ).loc main_arg6)) := by
  show StableHlo.after hostOps1 (W2 m ρ c) (Proc.devRef .tc main_arg6) = _
  after_results_simp
  rw [Stage1.keep2_arg6 m ρ c]
  all_goals rfl

/-- Argument 8 as the second region finds it. -/
theorem in2_arg8 : W3 m ρ c (Proc.devRef .tc main_arg8) = (m ((c : Thread nD τ).loc main_arg8)) := by
  show StableHlo.after hostOps1 (W2 m ρ c) (Proc.devRef .tc main_arg8) = _
  after_results_simp
  rw [Stage1.keep2_arg8 m ρ c]
  all_goals rfl

/-- The edges' source row. -/
theorem src3 : W3 m ρ c (Proc.devRef .tc main_v1) = Cert.ReferenceIdeal.Read.val_main_v1 (F := Ideal) (m ((c : Thread nD τ).loc main_arg1)) := by
  show StableHlo.after hostOps1 (W2 m ρ c) (Proc.devRef .tc main_v1) = _
  after_results_simp
  rw [Stage1.src2 m ρ c]
  all_goals rfl

/-- The edges' target row. -/
theorem dst3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp
  rw [Stage1.dst2 m ρ c]
  all_goals rfl

/-- Argument 2 is untouched by the second stretch. -/
theorem keep3_arg2 : W3 m ρ c (Proc.devRef .tc main_arg2) = (m ((c : Thread nD τ).loc main_arg2)) := by
  show StableHlo.after hostOps1 (W2 m ρ c) (Proc.devRef .tc main_arg2) = _
  after_results_simp
  rw [Stage1.keep2_arg2 m ρ c]
  all_goals rfl

/-- Argument 9 is untouched by the second stretch. -/
theorem keep3_arg9 : W3 m ρ c (Proc.devRef .tc main_arg9) = (m ((c : Thread nD τ).loc main_arg9)) := by
  show StableHlo.after hostOps1 (W2 m ρ c) (Proc.devRef .tc main_arg9) = _
  after_results_simp
  rw [Stage1.keep2_arg9 m ρ c]
  all_goals rfl

/-- Argument 10 is untouched by the second stretch. -/
theorem keep3_arg10 : W3 m ρ c (Proc.devRef .tc main_arg10) = (m ((c : Thread nD τ).loc main_arg10)) := by
  show StableHlo.after hostOps1 (W2 m ρ c) (Proc.devRef .tc main_arg10) = _
  after_results_simp
  rw [Stage1.keep2_arg10 m ρ c]
  all_goals rfl

/-- Argument 11 is untouched by the second stretch. -/
theorem keep3_arg11 : W3 m ρ c (Proc.devRef .tc main_arg11) = (m ((c : Thread nD τ).loc main_arg11)) := by
  show StableHlo.after hostOps1 (W2 m ρ c) (Proc.devRef .tc main_arg11) = _
  after_results_simp
  rw [Stage1.keep2_arg11 m ρ c]
  all_goals rfl

/-- Argument 12 is untouched by the second stretch. -/
theorem keep3_arg12 : W3 m ρ c (Proc.devRef .tc main_arg12) = (m ((c : Thread nD τ).loc main_arg12)) := by
  show StableHlo.after hostOps1 (W2 m ρ c) (Proc.devRef .tc main_arg12) = _
  after_results_simp
  rw [Stage1.keep2_arg12 m ρ c]
  all_goals rfl

/-- Argument 13 is untouched by the second stretch. -/
theorem keep3_arg13 : W3 m ρ c (Proc.devRef .tc main_arg13) = (m ((c : Thread nD τ).loc main_arg13)) := by
  show StableHlo.after hostOps1 (W2 m ρ c) (Proc.devRef .tc main_arg13) = _
  after_results_simp
  rw [Stage1.keep2_arg13 m ρ c]
  all_goals rfl

/-- After the second region its output array is the reference's second hidden array. -/
theorem h2 : W4 m ρ c (Proc.devRef .tc main_v45) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Cert.KernelIdeal.Layer1.final (V3 m ρ) c).trans ?_)
  rw [show V3 m ρ c main_v43 = _ from agg2 m ρ c, show V3 m ρ c main_v44 = _ from bias2 m ρ c, show V3 m ρ c main_v24 = _ from in2_h1 m ρ c,
    show V3 m ρ c main_arg6 = _ from in2_arg6 m ρ c, show V3 m ρ c main_arg8 = _ from in2_arg8 m ρ c]
  exact (Cert.ReferenceIdeal.Layers.h2_eq _ _ _ _ _ _ _ _).symm

/-- The second region leaves the edges' source row in place. -/
theorem src4 : W4 m ρ c (Proc.devRef .tc main_v1) = Cert.ReferenceIdeal.Read.val_main_v1 (F := Ideal) (m ((c : Thread nD τ).loc main_arg1)) :=
  (W4_of_ne m ρ c main_v1 (by decide)).trans (src3 m ρ c)
/-- The second region leaves the edges' target row in place. -/
theorem dst4 : W4 m ρ c (Proc.devRef .tc main_v3) = Cert.ReferenceIdeal.Read.val_main_v3 (F := Ideal) (m ((c : Thread nD τ).loc main_arg1)) :=
  (W4_of_ne m ρ c main_v3 (by decide)).trans (dst3 m ρ c)
/-- The second region leaves argument 2 in place. -/
theorem keep4_arg2 : W4 m ρ c (Proc.devRef .tc main_arg2) = (m ((c : Thread nD τ).loc main_arg2)) :=
  (W4_of_ne m ρ c main_arg2 (by decide)).trans (keep3_arg2 m ρ c)
/-- The second region leaves argument 9 in place. -/
theorem keep4_arg9 : W4 m ρ c (Proc.devRef .tc main_arg9) = (m ((c : Thread nD τ).loc main_arg9)) :=
  (W4_of_ne m ρ c main_arg9 (by decide)).trans (keep3_arg9 m ρ c)
/-- The second region leaves argument 10 in place. -/
theorem keep4_arg10 : W4 m ρ c (Proc.devRef .tc main_arg10) = (m ((c : Thread nD τ).loc main_arg10)) :=
  (W4_of_ne m ρ c main_arg10 (by decide)).trans (keep3_arg10 m ρ c)
/-- The second region leaves argument 11 in place. -/
theorem keep4_arg11 : W4 m ρ c (Proc.devRef .tc main_arg11) = (m ((c : Thread nD τ).loc main_arg11)) :=
  (W4_of_ne m ρ c main_arg11 (by decide)).trans (keep3_arg11 m ρ c)
/-- The second region leaves argument 12 in place. -/
theorem keep4_arg12 : W4 m ρ c (Proc.devRef .tc main_arg12) = (m ((c : Thread nD τ).loc main_arg12)) :=
  (W4_of_ne m ρ c main_arg12 (by decide)).trans (keep3_arg12 m ρ c)
/-- The second region leaves argument 13 in place. -/
theorem keep4_arg13 : W4 m ρ c (Proc.devRef .tc main_arg13) = (m ((c : Thread nD τ).loc main_arg13)) :=
  (W4_of_ne m ρ c main_arg13 (by decide)).trans (keep3_arg13 m ρ c)

end Cert.KernelIdeal.Stage2

end
-- ==== Proof.Stage3.lean ====
import proofs.«177792_j52475910422832_1_alg».proof.Proof.Stage2
import proofs.«177792_j52475910422832_1_alg».proof.Proof.Layer2

set_option maxRecDepth 16384

noncomputable section

namespace Cert.KernelIdeal.Stage3

open Cert.KernelIdeal Cert.KernelIdeal.Gen
open Idealize.ShloMosaic Idealize.ShloMosaic.TcCoe Idealize.SL.Sem Idealize.ShloMosaic.StableHlo

/-! # The kernel program up to the third layer's output

The third stretch aggregates the second hidden array over the edges as the reference does; the third region leaves the
third layer function of it (no clamp), the reference's third hidden array. -/

variable (m : (ℓ : Loc nD τ sig) → Buf (Elt Ideal) ℓ) (ρ : Dev nD → PrngReg) (c : Dev nD)

/-- The third aggregate is the reference's. -/
theorem agg3 : W5 m ρ c (Proc.devRef .tc main_v64) = Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v64) = _
  after_results_simp
  rw [Stage2.h2 m ρ c, Stage2.src4 m ρ c, Stage2.dst4 m ρ c]
  all_goals rfl

/-- The third bias, as a row. -/
theorem bias3 : W5 m ρ c (Proc.devRef .tc main_v65) = Cert.ReferenceIdeal.Read.val_main_v76 (F := Ideal) (m ((c : Thread nD τ).loc main_arg10)) := by
  show StableHlo.after hostOps2 (W4 m ρ c) (Proc.devRef .tc main_v65) = _
  after_results_simp
  rw [Stage2.keep4_arg10 m ρ c]
  all_goals rfl

/-- The second hidden array as the third region finds it. -/
theorem in3_h2 : W5 m ρ c (Proc.devRef .tc main_v45) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v45) = _
  after_results_simp
  rw [Stage2.h2 m ρ c]
  all_goals rfl

/-- Argument 9 as the third region finds it. -/
theorem in3_arg9 : W5 m ρ c (Proc.devRef .tc main_arg9) = (m ((c : Thread nD τ).loc main_arg9)) := by
  show StableHlo.after hostOps2 (W4 m ρ c) (Proc.devRef .tc main_arg9) = _
  after_results_simp
  rw [Stage2.keep4_arg9 m ρ c]
  all_goals rfl

/-- Argument 11 as the third region finds it. -/
theorem in3_arg11 : W5 m ρ c (Proc.devRef .tc main_arg11) = (m ((c : Thread nD τ).loc main_arg11)) := by
  show StableHlo.after hostOps2 (W4 m ρ c) (Proc.devRef .tc main_arg11) = _
  after_results_simp
  rw [Stage2.keep4_arg11 m ρ c]
  all_goals rfl

/-- Argument 2 is untouched by the third stretch. -/
theorem keep5_arg2 : W5 m ρ c (Proc.devRef .tc main_arg2) = (m ((c : Thread nD τ).loc main_arg2)) := by
  show StableHlo.after hostOps2 (W4 m ρ c) (Proc.devRef .tc main_arg2) = _
  after_results_simp
  rw [Stage2.keep4_arg2 m ρ c]
  all_goals rfl

/-- Argument 12 is untouched by the third stretch. -/
theorem keep5_arg12 : W5 m ρ c (Proc.devRef .tc main_arg12) = (m ((c : Thread nD τ).loc main_arg12)) := by
  show StableHlo.after hostOps2 (W4 m ρ c) (Proc.devRef .tc main_arg12) = _
  after_results_simp
  rw [Stage2.keep4_arg12 m ρ c]
  all_goals rfl

/-- Argument 13 is untouched by the third stretch. -/
theorem keep5_arg13 : W5 m ρ c (Proc.devRef .tc main_arg13) = (m ((c : Thread nD τ).loc main_arg13)) := by
  show StableHlo.after hostOps2 (W4 m ρ c) (Proc.devRef .tc main_arg13) = _
  after_results_simp
  rw [Stage2.keep4_arg13 m ρ c]
  all_goals rfl

/-- After the third region its output array is the reference's third hidden array. -/
theorem h3 : W6 m ρ c (Proc.devRef .tc main_v66) = Cert.ReferenceIdeal.Read.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Cert.KernelIdeal.Layer2.final (V5 m ρ) c).trans ?_)
  rw [show V5 m ρ c main_v64 = _ from agg3 m ρ c, show V5 m ρ c main_v65 = _ from bias3 m ρ c, show V5 m ρ c main_v45 = _ from in3_h2 m ρ c,
    show V5 m ρ c main_arg9 = _ from in3_arg9 m ρ c, show V5 m ρ c main_arg11 = _ from in3_arg11 m ρ c]
  exact (Cert.ReferenceIdeal.Layers.h3_eq _ _ _ _ _ _ _ _ _ _ _).symm
/-- The third region leaves argument 2 in place. -/
theorem keep6_arg2 : W6 m ρ c (Proc.devRef .tc main_arg2) = (m ((c : Thread nD τ).loc main_arg2)) :=
  (W6_of_ne m ρ c main_arg2 (by decide)).trans (keep5_arg2 m ρ c)
/-- The third region leaves argument 12 in place. -/
theorem keep6_arg12 : W6 m ρ c (Proc.devRef .tc main_arg12) = (m ((c : Thread nD τ).loc main_arg12)) :=
  (W6_of_ne m ρ c main_arg12 (by decide)).trans (keep5_arg12 m ρ c)
/-- The third region leaves argument 13 in place. -/
theorem keep6_arg13 : W6 m ρ c (Proc.devRef .tc main_arg13) = (m ((c : Thread nD τ).loc main_arg13)) :=
  (W6_of_ne m ρ c main_arg13 (by decide)).trans (keep5_arg13 m ρ c)

end Cert.KernelIdeal.Stage3

end
-- ==== Proof.Stage4.lean ====
import proofs.«177792_j52475910422832_1_alg».proof.Proof.Stage3
import proofs.«177792_j52475910422832_1_alg».proof.Proof.Readout

set_option maxRecDepth 16384

noncomputable section

namespace Cert.KernelIdeal.Stage4

open Cert.KernelIdeal Cert.KernelIdeal.Gen
open Idealize.ShloMosaic Idealize.ShloMosaic.TcCoe Idealize.SL.Sem Idealize.ShloMosaic.StableHlo

/-! # The kernel program's result

The last stretch pools the third hidden array per graph (a scatter-add by the batch vector, divided by the clamped graph
sizes) as the reference does; the last region applies the final linear map. The result array is the reference's result. -/

variable (m : (ℓ : Loc nD τ sig) → Buf (Elt Ideal) ℓ) (ρ : Dev nD → PrngReg) (c : Dev nD)

/-- The pooled features are the reference's. -/
theorem pooled : W7 m ρ c (Proc.devRef .tc main_v78) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v78) = _
  after_results_simp
  rw [Stage3.h3 m ρ c, Stage3.keep6_arg2 m ρ c]
  all_goals rfl

/-- The last bias, as a row. -/
theorem bias4 : W7 m ρ c (Proc.devRef .tc main_v79) = Cert.ReferenceIdeal.Read.val_main_v94 (F := Ideal) (m ((c : Thread nD τ).loc main_arg13)) := by
  show StableHlo.after hostOps3 (W6 m ρ c) (Proc.devRef .tc main_v79) = _
  after_results_simp
  rw [Stage3.keep6_arg13 m ρ c]
  all_goals rfl

/-- The last weights as the last region finds them. -/
theorem in4_arg12 : W7 m ρ c (Proc.devRef .tc main_arg12) = (m ((c : Thread nD τ).loc main_arg12)) := by
  show StableHlo.after hostOps3 (W6 m ρ c) (Proc.devRef .tc main_arg12) = _
  after_results_simp
  rw [Stage3.keep6_arg12 m ρ c]
  all_goals rfl

/-- After the last region the result array is the reference's result, as a function of the fourteen arguments. -/
theorem result : W8 m ρ c (Proc.devRef .tc main_v80) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 3).trans ((Cert.KernelIdeal.Readout.final (V7 m ρ) c).trans ?_)
  rw [show V7 m ρ c main_v78 = _ from pooled m ρ c, show V7 m ρ c main_v79 = _ from bias4 m ρ c, show V7 m ρ c main_arg12 = _ from in4_arg12 m ρ c]
  exact (Cert.ReferenceIdeal.Layers.out_eq _ _ _ _ _ _ _ _ _ _ _ _ _ _).symm

end Cert.KernelIdeal.Stage4

end
-- ==== Proof.lean ====
/-
  A three-layer graph convolution network with mean pooling and a final linear map, as a Pallas program of four kernel
  regions among host operations, against its plain jnp reference, on the extended reals.

  Both programs compute, for node features x, edges (src → dst), graph assignment `batch` and the weights,
      aggₗ = (Σ over edges into a node of hₗ₋₁[src]) / max(in-degree, 1)
      hₗ   = σₗ(aggₗ · Wlₗ + hₗ₋₁ · Wrₗ + blₗ)        (σ = max(·, 0) for l = 1, 2, the identity for l = 3; h₀ = x)
      out  = (Σ over a graph's nodes of h₃ / max(size, 1)) · Wlin + blin.
  The gathers, scatter-adds, clamps and divisions are the same host operations in both programs, term for term. The kernel
  computes each layer in a region that walks the nodes in 20 blocks of 5000 rows, multiplying on the matrix unit (a change
  of float format is the identity on the extended reals) and adding the bias last, (A·Wl + H·Wr) + b; the reference adds
  it between the two products, (A·Wl + b) + H·Wr. Addition on the extended reals is commutative and associative, also at
  the infinities, so the two agree entry by entry and the precondition (finite inputs) is never opened.

  The modules: `Products` (a matrix product into a zero accumulator read at an entry), `Layer0` … `Layer2` and `Readout`
  (each region's output array as ONE whole-array function of the arrays the region finds), `WholeRun` (the program's run
  with every buffer's final contents), `RefLayers` (the reference's layers are those functions), `Stage1` … `Stage4`
  (the buffer contents at each boundary between host stretch and region are the reference's stages), and the claims below.
-/
import proofs.«177792_j52475910422832_1_alg».proof.Defs
import proofs.«177792_j52475910422832_1_alg».proof.Proof.Gen.Kernel
import proofs.«177792_j52475910422832_1_alg».proof.Proof.Gen.Kernel.Frame
import proofs.«177792_j52475910422832_1_alg».proof.Proof.Gen.KernelIdeal
import proofs.«177792_j52475910422832_1_alg».proof.Proof.Gen.KernelIdeal.Frame
import proofs.«177792_j52475910422832_1_alg».proof.Proof.Gen.ReferenceIdeal
import proofs.«177792_j52475910422832_1_alg».proof.Proof.Gen.Pre_finite_inputs
import proofs.«177792_j52475910422832_1_alg».proof.Proof.Gen.ReferenceIdeal.Run
import proofs.«177792_j52475910422832_1_alg».proof.Proof.Gen.ReferenceIdeal.Read
import proofs.«177792_j52475910422832_1_alg».proof.Proof.WholeRun
import proofs.«177792_j52475910422832_1_alg».proof.Proof.Stage4
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result array: the kernel program's result is
    the reference's result term of the kernel's arguments (`Stage4.result`), and the reference's run ends at that term of its
    own arguments, which are the same arrays. -/
theorem algebraic : Cert.algebraic_KernelIdeal_ReferenceIdeal := by
  intro m ρ m' ρ' _ hagree
  refine ⟨fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Stage4.result m ρ c), (h c).2⟩)
      (Cert.KernelIdeal.WholeRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v96_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
